-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x1600000 : Shape := ⟨2, ![2, 1600000]⟩
abbrev S50000 : Shape := ⟨1, ![50000]⟩
abbrev S1433x64 : Shape := ⟨2, ![1433, 64]⟩
abbrev S64 : Shape := ⟨1, ![64]⟩
abbrev S64x1433 : Shape := ⟨2, ![64, 1433]⟩
abbrev S1433 : Shape := ⟨1, ![1433]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x64 : S_.BroadcastsInDim S1433x64 (![] : Fin 0 → Fin S1433x64.rank)
  reducesTo_S1433x64_S_d0_1 : S1433x64.ReducesTo [0, 1] S_
  bcast_S_S64 : S_.BroadcastsInDim S64 (![] : Fin 0 → Fin S64.rank)
  reducesTo_S64_S_d0 : S64.ReducesTo [0] S_
  bcast_S_S64x1433 : S_.BroadcastsInDim S64x1433 (![] : Fin 0 → Fin S64x1433.rank)
  reducesTo_S64x1433_S_d0_1 : S64x1433.ReducesTo [0, 1] S_
  bcast_S_S1433 : S_.BroadcastsInDim S1433 (![] : Fin 0 → Fin S1433.rank)
  reducesTo_S1433_S_d0 : S1433.ReducesTo [0] S_

variable [Facts]

def fn_part1 {F : FTy → Type} [FloatOps F] (main_arg7 : FVec F S1433 .f32) (main_v13 : IVec S_ 1) (main_v16 : IVec S64x1433 1) : IVec S_ 1 :=
  let main_c_5 : IVec S_ 1 := constantI S_ 1 1#1
  let main_v17 : IVec S_ 1 := (fun x v => Host.reduce IntOp.andi x v reducesTo_S64x1433_S_d0_1 h_S_) main_v16 main_c_5
  let main_v18 : IVec S_ 1 := andi main_v13 main_v17
  let main_v19 : FVec F S1433 .f32 := Host.absf main_arg7
  let main_cst_6 : FVec F S_ .f32 := constant S_ .f32 0x7F800000#32
  let main_v20 : FVec F S1433 .f32 := broadcastInDim S1433 ![] bcast_S_S1433 main_cst_6
  let main_v21 : IVec S1433 1 := cmpf .olt main_v19 main_v20
  let main_c_7 : IVec S_ 1 := constantI S_ 1 1#1
  let main_v22 : IVec S_ 1 := (fun x v => Host.reduce IntOp.andi x v reducesTo_S1433_S_d0 h_S_) main_v21 main_c_7
  let main_v23 : IVec S_ 1 := andi main_v18 main_v22
  main_v23

def fn {F : FTy → Type} [FloatOps F] (main_arg0 : FVec F S50000x1433 .f32) (main_arg1 : IVec S2x1600000 32) (main_arg2 : IVec S50000 32) (main_arg3 : IVec S50000 32) (main_arg4 : FVec F S1433x64 .f32) (main_arg5 : FVec F S64 .f32) (main_arg6 : FVec F S64x1433 .f32) (main_arg7 : FVec F S1433 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x64 .f32 := Host.absf main_arg4
  let main_cst_0 : FVec F S_ .f32 := constant S_ .f32 0x7F800000#32
  let main_v5 : FVec F S1433x64 .f32 := broadcastInDim S1433x64 ![] bcast_S_S1433x64 main_cst_0
  let main_v6 : IVec S1433x64 1 := cmpf .olt main_v4 main_v5
  let main_c_1 : IVec S_ 1 := constantI S_ 1 1#1
  let main_v7 : IVec S_ 1 := (fun x v => Host.reduce IntOp.andi x v reducesTo_S1433x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1433 .f32 := Host.absf main_arg6
  let main_cst_4 : FVec F S_ .f32 := constant S_ .f32 0x7F800000#32
  let main_v15 : FVec F S64x1433 .f32 := broadcastInDim S64x1433 ![] bcast_S_S64x1433 main_cst_4
  let main_v16 : IVec S64x1433 1 := cmpf .olt main_v14 main_v15
  fn_part1 (F := F) main_arg7 main_v13 main_v16
-- ==== Kernel.lean ====
abbrev S50000x1433 : Shape := ⟨2, ![50000, 1433]⟩
abbrev S2x1600000 : Shape := ⟨2, ![2, 1600000]⟩
abbrev S50000 : Shape := ⟨1, ![50000]⟩
abbrev S1433x64 : Shape := ⟨2, ![1433, 64]⟩
abbrev S64 : Shape := ⟨1, ![64]⟩
abbrev S64x1433 : Shape := ⟨2, ![64, 1433]⟩
abbrev S1433 : Shape := ⟨1, ![1433]⟩
abbrev S1x1600000 : Shape := ⟨2, ![1, 1600000]⟩
abbrev S1600000 : Shape := ⟨1, ![1600000]⟩
abbrev S_ : Shape := ⟨0, ![]⟩
abbrev S50000x64 : Shape := ⟨2, ![50000, 64]⟩
abbrev S2000x1433 : Shape := ⟨2, ![2000, 1433]⟩
abbrev S2000x64 : Shape := ⟨2, ![2000, 64]⟩
abbrev S1600000x1 : Shape := ⟨2, ![1600000, 1]⟩
abbrev S1600000x64 : Shape := ⟨2, ![1600000, 64]⟩
abbrev S50000x1 : Shape := ⟨2, ![50000, 1]⟩
abbrev S1x64 : Shape := ⟨2, ![1, 64]⟩
abbrev S5000 : Shape := ⟨1, ![5000]⟩
abbrev S5000x64 : Shape := ⟨2, ![5000, 64]⟩
abbrev S5000x1 : Shape := ⟨2, ![5000, 1]⟩
abbrev S1000x64 : Shape := ⟨2, ![1000, 64]⟩
abbrev S1000x1433 : Shape := ⟨2, ![1000, 1433]⟩
abbrev S1x1433 : Shape := ⟨2, ![1, 1433]⟩

abbrev nBuf : Space → Nat
  | .hbm => 167
  | .vmem => 11
  | .smem => 0
  | _ => 0

abbrev hbmTy0_0 (i : Nat) : BufTy := match i % 128 with
  | 0 => ⟨S50000x1433, .f32⟩
  | 1 => ⟨S2x1600000, .i32⟩
  | 2 => ⟨S50000, .i32⟩
  | 3 => ⟨S50000, .i32⟩
  | 4 => ⟨S1433x64, .f32⟩
  | 5 => ⟨S64, .f32⟩
  | 6 => ⟨S64x1433, .f32⟩
  | 7 => ⟨S1433, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S50000x64, .f32⟩
  | 15 => ⟨S_, .f32⟩
  | 16 => ⟨S50000, .f32⟩
  | 17 => ⟨S1600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S50000x64, .f32⟩
  | 57 => ⟨S1600000x1, .i32⟩
  | 58 => ⟨S50000x64, .f32⟩
  | 59 => ⟨S_, .f32⟩
  | 60 => ⟨S50000, .f32⟩
  | 61 => ⟨S50000, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S_, .f32⟩
  | 73 => ⟨S50000, .f32⟩
  | 74 => ⟨S_, .f32⟩
  | 75 => ⟨S5000, .f32⟩
  | 76 => ⟨S50000x1, .i32⟩
  | 77 => ⟨S5000, .f32⟩
  | 78 => ⟨S_, .f32⟩
  | 79 => ⟨S5000x64, .f32⟩
  | 80 => ⟨S50000x1, .i32⟩
  | 81 => ⟨S5000x64, .f32⟩
  | 82 => ⟨S_, .f32⟩
  | 83 => ⟨S5000, .f32⟩
  | 84 => ⟨S5000, .f32⟩
  | 85 => ⟨S5000x1, .f32⟩
  | 86 => ⟨S5000x64, .f32⟩
  | 87 => ⟨S5000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .i32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .i32⟩
  | 106 => ⟨S_, .f32⟩
  | 107 => ⟨S5000, .f32⟩
  | 108 => ⟨S1600000x1, .i32⟩
  | 109 => ⟨S5000, .f32⟩
  | 110 => ⟨S_, .f32⟩
  | 111 => ⟨S5000, .f32⟩
  | 112 => ⟨S5000, .f32⟩
  | 113 => ⟨S5000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S50000x1433, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S1600000, .f32⟩
  | 5 => ⟨S1600000, .f32⟩
  | 6 => ⟨S1600000x1, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S1600000x64, .f32⟩
  | 17 => ⟨S1600000x64, .f32⟩
  | 18 => ⟨S_, .f32⟩
  | 19 => ⟨S5000x64, .f32⟩
  | 20 => ⟨S1600000x1, .i32⟩
  | 21 => ⟨S5000x64, .f32⟩
  | 22 => ⟨S_, .f32⟩
  | 23 => ⟨S5000, .f32⟩
  | 24 => ⟨S5000, .f32⟩
  | 25 => ⟨S5000x1, .f32⟩
  | 26 => ⟨S5000x64, .f32⟩
  | 27 => ⟨S5000x64, .f32⟩
  | 28 => ⟨S5000x64, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x64, .f32⟩
  | 38 => ⟨S50000x1433, .f32⟩
  | _ => ⟨S50000x1433, .f32⟩

abbrev hbmTy (i : Nat) : BufTy := match i / 128 with
  | 0 => hbmTy0_0 i
  | 1 => hbmTy0_1 i
  | _ => ⟨S50000x1433, .f32⟩

abbrev bufTy : (tb : Table) → Fin (tcTables nBuf tb) → BufTy
  | .hbm, ⟨i, _⟩ => hbmTy i
  | .local _ .vmem, ⟨0, _⟩ => ⟨S2000x1433, .f32⟩
  | .local _ .vmem, ⟨1, _⟩ => ⟨S2000x1433, .f32⟩
  | .local _ .vmem, ⟨2, _⟩ => ⟨S1433x64, .f32⟩
  | .local _ .vmem, ⟨3, _⟩ => ⟨S2000x64, .f32⟩
  | .local _ .vmem, ⟨4, _⟩ => ⟨S2000x64, .f32⟩
  | .local _ .vmem, ⟨5, _⟩ => ⟨S1000x64, .f32⟩
  | .local _ .vmem, ⟨6, _⟩ => ⟨S1000x64, .f32⟩
  | .local _ .vmem, ⟨7, _⟩ => ⟨S64x1433, .f32⟩
  | .local _ .vmem, ⟨8, _⟩ => ⟨S1433, .f32⟩
  | .local _ .vmem, ⟨9, _⟩ => ⟨S1000x1433, .f32⟩
  | .local _ .vmem, ⟨10, _⟩ => ⟨S1000x1433, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_19 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_21 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_23 : Ref sig .tc := ⟨.hbm, 135, rfl⟩
abbrev main_v100 : Ref sig .tc := ⟨.hbm, 136, rfl⟩
abbrev main_v101 : Ref sig .tc := ⟨.hbm, 137, rfl⟩
abbrev main_c_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_26 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_27 : Ref sig .tc := ⟨.hbm, 157, rfl⟩
abbrev main_v118 : Ref sig .tc := ⟨.hbm, 158, rfl⟩
abbrev main_v119 : Ref sig .tc := ⟨.hbm, 159, rfl⟩
abbrev main_c_28 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1433 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1433 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1433 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x64_S1433x64_0_0 : ∀ a, (![0, 0] : Fin 2 → Nat) a + S1433x64.size a ≤ S1433x64.size a
  h_S1433x64 : 0 < S1433x64.numel
  inb_S2000x64_S2000x64_0_0 : ∀ a, (![0, 0] : Fin 2 → Nat) a + S2000x64.size a ≤ S2000x64.size a
  h_S2000x64 : 0 < S2000x64.numel
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S5000 : S_.BroadcastsInDim S5000 (![] : Fin 0 → Fin S5000.rank)
  bcast_S_S5000x64 : S_.BroadcastsInDim S5000x64 (![] : Fin 0 → Fin S5000x64.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x1433_S64x1433_0_0 : ∀ a, (![0, 0] : Fin 2 → Nat) a + S64x1433.size a ≤ S64x1433.size a
  h_S64x1433 : 0 < S64x1433.numel
  inb_S1433_S1433_0 : ∀ a, (![0] : Fin 1 → Nat) a + S1433.size a ≤ S1433.size a
  h_S1433 : 0 < S1433.numel
  shapeCasts_S1433_S1x1433 : S1433.ShapeCasts S1x1433
  broadcasts_S1x1433_S1000x1433 : S1x1433.Broadcasts S1000x1433
  inb_S1000x1433_S1000x1433_0_0 : ∀ a, (![0, 0] : Fin 2 → Nat) a + S1000x1433.size a ≤ S1000x1433.size a
  h_S1000x1433 : 0 < S1000x1433.numel
  dot_S2000x1433_S1433x64_S2000x64_1_0_0_1_n_n_wf : DotDims.WF S2000x1433 S1433x64 S2000x64 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S5000_S50000x1_S50000_n_0_0_1_wf : ScatterDims.WF S5000 S50000x1 S50000 [] [0] [0] 1
  scatter_S5000x64_S50000x1_S50000x64_1_0_0_1_wf : ScatterDims.WF S5000x64 S50000x1 S50000x64 [1] [0] [0] 1
  scatter_S5000_S1600000x1_S1600000_n_0_0_1_wf : ScatterDims.WF S5000 S1600000x1 S1600000 [] [0] [0] 1
  gather_S5000_S1600000x1_S1600000_n_0_n_n_0_1_1_wf : GatherDims.WF S5000 S1600000x1 S1600000 [] [0] [] [0] [] 1 ![1]
  gather_S5000x64_S1600000x1_S1600000x64_1_0_n_n_0_1_164_wf : GatherDims.WF S5000x64 S1600000x1 S1600000x64 [1] [0] [] [0] [] 1 ![1, 64]
  scatter_S5000x64_S1600000x1_S1600000x64_1_0_0_1_wf : ScatterDims.WF S5000x64 S1600000x1 S1600000x64 [1] [0] [0] 1
  gather_S5000x64_S50000x1_S50000x64_1_0_n_n_0_1_164_wf : GatherDims.WF S5000x64 S50000x1 S50000x64 [1] [0] [] [0] [] 1 ![1, 64]
  dot_S1000x64_S64x1433_S1000x1433_1_0_0_1_n_n_wf : DotDims.WF S1000x64 S64x1433 S1000x1433 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S50000x1433.size a
  hwx0_0 : ∀ i : grid0.Coords, EltTy.bits .f32 = 32 ∨ (Rect.block (s := S50000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x64.size a ≤ S1433x64.size a
  hwx0_1 : ∀ i : grid0.Coords, EltTy.bits .f32 = 32 ∨ (Rect.block (s := S1433x64) S1433x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1433.size a ≤ S64x1433.size a
  hwx1_1 : ∀ i : grid1.Coords, EltTy.bits .f32 = 32 ∨ (Rect.block (s := S64x1433) S64x1433.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1433.size a ≤ S1433.size a
  hwx1_2 : ∀ i : grid1.Coords, EltTy.bits .f32 = 32 ∨ (Rect.block (s := S1433) S1433.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1433.size a ≤ S50000x1433.size a
  hwx1_3 : ∀ i : grid1.Coords, EltTy.bits .f32 = 32 ∨ (Rect.block (s := S50000x1433) S1000x1433.size (cc1_transform_3 i) (hinb1_3 i)).WholeWords (EltTy.packing .f32)

variable [Facts₀]

def dot_S2000x1433_S1433x64_S2000x64_1_0_0_1_n_n : DotDims S2000x1433 S1433x64 S2000x64 where
  lhsContracting := [1]
  rhsContracting := [0]
  lhsNonContracting := [0]
  rhsNonContracting := [1]
  lhsBatch := []
  rhsBatch := []
  wf := dot_S2000x1433_S1433x64_S2000x64_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf
def scatter_S5000x64_S50000x1_S50000x64_1_0_0_1 : ScatterDims S5000x64 S50000x1 S50000x64 where
  updateWindowDims := [1]
  insertedWindowDims := [0]
  scatterDimsToOperandDims := [0]
  indexVectorDim := 1
  wf := scatter_S5000x64_S50000x1_S50000x64_1_0_0_1_wf
def scatter_S5000_S1600000x1_S1600000_n_0_0_1 : ScatterDims S5000 S1600000x1 S1600000 where
  updateWindowDims := []
  insertedWindowDims := [0]
  scatterDimsToOperandDims := [0]
  indexVectorDim := 1
  wf := scatter_S5000_S1600000x1_S1600000_n_0_0_1_wf
def gather_S5000_S1600000x1_S1600000_n_0_n_n_0_1_1 : GatherDims S5000 S1600000x1 S1600000 where
  offsetDims := []
  collapsedSliceDims := [0]
  operandBatchingDims := []
  startIndicesBatchingDims := []
  startIndexMap := [0]
  indexVectorDim := 1
  sliceSizes := ![1]
  wf := gather_S5000_S1600000x1_S1600000_n_0_n_n_0_1_1_wf
def gather_S5000x64_S1600000x1_S1600000x64_1_0_n_n_0_1_164 : GatherDims S5000x64 S1600000x1 S1600000x64 where
  offsetDims := [1]
  collapsedSliceDims := [0]
  operandBatchingDims := []
  startIndicesBatchingDims := []
  startIndexMap := [0]
  indexVectorDim := 1
  sliceSizes := ![1, 64]
  wf := gather_S5000x64_S1600000x1_S1600000x64_1_0_n_n_0_1_164_wf
def scatter_S5000x64_S1600000x1_S1600000x64_1_0_0_1 : ScatterDims S5000x64 S1600000x1 S1600000x64 where
  updateWindowDims := [1]
  insertedWindowDims := [0]
  scatterDimsToOperandDims := [0]
  indexVectorDim := 1
  wf := scatter_S5000x64_S1600000x1_S1600000x64_1_0_0_1_wf
def gather_S5000x64_S50000x1_S50000x64_1_0_n_n_0_1_164 : GatherDims S5000x64 S50000x1 S50000x64 where
  offsetDims := [1]
  collapsedSliceDims := [0]
  operandBatchingDims := []
  startIndicesBatchingDims := []
  startIndexMap := [0]
  indexVectorDim := 1
  sliceSizes := ![1, 64]
  wf := gather_S5000x64_S50000x1_S50000x64_1_0_n_n_0_1_164_wf
def dot_S1000x64_S64x1433_S1000x1433_1_0_0_1_n_n : DotDims S1000x64 S64x1433 S1000x1433 where
  lhsContracting := [1]
  rhsContracting := [0]
  lhsNonContracting := [0]
  rhsNonContracting := [1]
  lhsBatch := []
  rhsBatch := []
  wf := dot_S1000x64_S64x1433_S1000x1433_1_0_0_1_n_n_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1433x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v124) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x1433.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1433.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v125) S1000x1433.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x1433 : Shape := ⟨2, ![50000, 1433]⟩
abbrev S2x1600000 : Shape := ⟨2, ![2, 1600000]⟩
abbrev S50000 : Shape := ⟨1, ![50000]⟩
abbrev S1433x64 : Shape := ⟨2, ![1433, 64]⟩
abbrev S64 : Shape := ⟨1, ![64]⟩
abbrev S64x1433 : Shape := ⟨2, ![64, 1433]⟩
abbrev S1433 : Shape := ⟨1, ![1433]⟩
abbrev S1x1600000 : Shape := ⟨2, ![1, 1600000]⟩
abbrev S1600000 : Shape := ⟨1, ![1600000]⟩
abbrev S_ : Shape := ⟨0, ![]⟩
abbrev S50000x64 : Shape := ⟨2, ![50000, 64]⟩
abbrev S1600000x1 : Shape := ⟨2, ![1600000, 1]⟩
abbrev S1600000x64 : Shape := ⟨2, ![1600000, 64]⟩
abbrev S50000x1 : Shape := ⟨2, ![50000, 1]⟩
abbrev S1x64 : Shape := ⟨2, ![1, 64]⟩
abbrev S5000 : Shape := ⟨1, ![5000]⟩
abbrev S5000x64 : Shape := ⟨2, ![5000, 64]⟩
abbrev S5000x1 : Shape := ⟨2, ![5000, 1]⟩
abbrev S5000x1433 : Shape := ⟨2, ![5000, 1433]⟩
abbrev S1x1433 : Shape := ⟨2, ![1, 1433]⟩

abbrev nBuf : Space → Nat
  | .hbm => 170
  | .vmem => 0
  | .smem => 0
  | _ => 0

abbrev hbmTy0_0 (i : Nat) : BufTy := match i % 128 with
  | 0 => ⟨S50000x1433, .f32⟩
  | 1 => ⟨S2x1600000, .i32⟩
  | 2 => ⟨S50000, .i32⟩
  | 3 => ⟨S50000, .i32⟩
  | 4 => ⟨S1433x64, .f32⟩
  | 5 => ⟨S64, .f32⟩
  | 6 => ⟨S64x1433, .f32⟩
  | 7 => ⟨S1433, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S50000x64, .f32⟩
  | 15 => ⟨S_, .f32⟩
  | 16 => ⟨S50000, .f32⟩
  | 17 => ⟨S1600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S50000x64, .f32⟩
  | 57 => ⟨S1600000x1, .i32⟩
  | 58 => ⟨S50000x64, .f32⟩
  | 59 => ⟨S_, .f32⟩
  | 60 => ⟨S50000, .f32⟩
  | 61 => ⟨S50000, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S_, .f32⟩
  | 73 => ⟨S50000, .f32⟩
  | 74 => ⟨S_, .f32⟩
  | 75 => ⟨S5000, .f32⟩
  | 76 => ⟨S50000x1, .i32⟩
  | 77 => ⟨S5000, .f32⟩
  | 78 => ⟨S_, .f32⟩
  | 79 => ⟨S5000x64, .f32⟩
  | 80 => ⟨S50000x1, .i32⟩
  | 81 => ⟨S5000x64, .f32⟩
  | 82 => ⟨S_, .f32⟩
  | 83 => ⟨S5000, .f32⟩
  | 84 => ⟨S5000, .f32⟩
  | 85 => ⟨S5000x1, .f32⟩
  | 86 => ⟨S5000x64, .f32⟩
  | 87 => ⟨S5000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .i32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .i32⟩
  | 106 => ⟨S_, .f32⟩
  | 107 => ⟨S5000, .f32⟩
  | 108 => ⟨S1600000x1, .i32⟩
  | 109 => ⟨S5000, .f32⟩
  | 110 => ⟨S_, .f32⟩
  | 111 => ⟨S5000, .f32⟩
  | 112 => ⟨S5000, .f32⟩
  | 113 => ⟨S5000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S50000x1433, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S1600000, .f32⟩
  | 5 => ⟨S1600000, .f32⟩
  | 6 => ⟨S1600000x1, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S1600000x64, .f32⟩
  | 17 => ⟨S1600000x64, .f32⟩
  | 18 => ⟨S_, .f32⟩
  | 19 => ⟨S5000x64, .f32⟩
  | 20 => ⟨S1600000x1, .i32⟩
  | 21 => ⟨S5000x64, .f32⟩
  | 22 => ⟨S_, .f32⟩
  | 23 => ⟨S5000, .f32⟩
  | 24 => ⟨S5000, .f32⟩
  | 25 => ⟨S5000x1, .f32⟩
  | 26 => ⟨S5000x64, .f32⟩
  | 27 => ⟨S5000x64, .f32⟩
  | 28 => ⟨S5000x64, .f32⟩
  | 29 => ⟨S5000x1433, .f32⟩
  | 30 => ⟨S1x1433, .f32⟩
  | 31 => ⟨S5000x1433, .f32⟩
  | 32 => ⟨S5000x1433, .f32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x1433, .f32⟩
  | _ => ⟨S50000x1433, .f32⟩

abbrev hbmTy (i : Nat) : BufTy := match i / 128 with
  | 0 => hbmTy0_0 i
  | 1 => hbmTy0_1 i
  | _ => ⟨S50000x1433, .f32⟩

abbrev bufTy : (tb : Table) → Fin (tcTables nBuf tb) → BufTy
  | .hbm, ⟨i, _⟩ => hbmTy i
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_19 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_21 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_23 : Ref sig .tc := ⟨.hbm, 135, rfl⟩
abbrev main_v100 : Ref sig .tc := ⟨.hbm, 136, rfl⟩
abbrev main_v101 : Ref sig .tc := ⟨.hbm, 137, rfl⟩
abbrev main_c_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_26 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_27 : Ref sig .tc := ⟨.hbm, 161, rfl⟩
abbrev main_v122 : Ref sig .tc := ⟨.hbm, 162, rfl⟩
abbrev main_v123 : Ref sig .tc := ⟨.hbm, 163, rfl⟩
abbrev main_c_28 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S5000 : S_.BroadcastsInDim S5000 (![] : Fin 0 → Fin S5000.rank)
  bcast_S_S5000x64 : S_.BroadcastsInDim S5000x64 (![] : Fin 0 → Fin S5000x64.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S1433_S1x1433_1 : S1433.BroadcastsInDim S1x1433 (![1] : Fin 1 → Fin S1x1433.rank)
  bcast_S1x1433_S5000x1433_0_1 : S1x1433.BroadcastsInDim S5000x1433 (![0, 1] : Fin 2 → Fin S5000x1433.rank)
  dot_S50000x1433_S1433x64_S50000x64_1_0_0_1_n_n_wf : DotDims.WF S50000x1433 S1433x64 S50000x64 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S5000_S50000x1_S50000_n_0_0_1_wf : ScatterDims.WF S5000 S50000x1 S50000 [] [0] [0] 1
  scatter_S5000x64_S50000x1_S50000x64_1_0_0_1_wf : ScatterDims.WF S5000x64 S50000x1 S50000x64 [1] [0] [0] 1
  scatter_S5000_S1600000x1_S1600000_n_0_0_1_wf : ScatterDims.WF S5000 S1600000x1 S1600000 [] [0] [0] 1
  gather_S5000_S1600000x1_S1600000_n_0_n_n_0_1_1_wf : GatherDims.WF S5000 S1600000x1 S1600000 [] [0] [] [0] [] 1 ![1]
  gather_S5000x64_S1600000x1_S1600000x64_1_0_n_n_0_1_164_wf : GatherDims.WF S5000x64 S1600000x1 S1600000x64 [1] [0] [] [0] [] 1 ![1, 64]
  scatter_S5000x64_S1600000x1_S1600000x64_1_0_0_1_wf : ScatterDims.WF S5000x64 S1600000x1 S1600000x64 [1] [0] [0] 1
  dot_S5000x64_S64x1433_S5000x1433_1_0_0_1_n_n_wf : DotDims.WF S5000x64 S64x1433 S5000x1433 [1] [0] [0] [1] [] []
  gather_S5000x1433_S50000x1_S50000x1433_1_0_n_n_0_1_11433_wf : GatherDims.WF S5000x1433 S50000x1 S50000x1433 [1] [0] [] [0] [] 1 ![1, 1433]

variable [Facts₀]

def dot_S50000x1433_S1433x64_S50000x64_1_0_0_1_n_n : DotDims S50000x1433 S1433x64 S50000x64 where
  lhsContracting := [1]
  rhsContracting := [0]
  lhsNonContracting := [0]
  rhsNonContracting := [1]
  lhsBatch := []
  rhsBatch := []
  wf := dot_S50000x1433_S1433x64_S50000x64_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf
def scatter_S5000x64_S50000x1_S50000x64_1_0_0_1 : ScatterDims S5000x64 S50000x1 S50000x64 where
  updateWindowDims := [1]
  insertedWindowDims := [0]
  scatterDimsToOperandDims := [0]
  indexVectorDim := 1
  wf := scatter_S5000x64_S50000x1_S50000x64_1_0_0_1_wf
def scatter_S5000_S1600000x1_S1600000_n_0_0_1 : ScatterDims S5000 S1600000x1 S1600000 where
  updateWindowDims := []
  insertedWindowDims := [0]
  scatterDimsToOperandDims := [0]
  indexVectorDim := 1
  wf := scatter_S5000_S1600000x1_S1600000_n_0_0_1_wf
def gather_S5000_S1600000x1_S1600000_n_0_n_n_0_1_1 : GatherDims S5000 S1600000x1 S1600000 where
  offsetDims := []
  collapsedSliceDims := [0]
  operandBatchingDims := []
  startIndicesBatchingDims := []
  startIndexMap := [0]
  indexVectorDim := 1
  sliceSizes := ![1]
  wf := gather_S5000_S1600000x1_S1600000_n_0_n_n_0_1_1_wf
def gather_S5000x64_S1600000x1_S1600000x64_1_0_n_n_0_1_164 : GatherDims S5000x64 S1600000x1 S1600000x64 where
  offsetDims := [1]
  collapsedSliceDims := [0]
  operandBatchingDims := []
  startIndicesBatchingDims := []
  startIndexMap := [0]
  indexVectorDim := 1
  sliceSizes := ![1, 64]
  wf := gather_S5000x64_S1600000x1_S1600000x64_1_0_n_n_0_1_164_wf
def scatter_S5000x64_S1600000x1_S1600000x64_1_0_0_1 : ScatterDims S5000x64 S1600000x1 S1600000x64 where
  updateWindowDims := [1]
  insertedWindowDims := [0]
  scatterDimsToOperandDims := [0]
  indexVectorDim := 1
  wf := scatter_S5000x64_S1600000x1_S1600000x64_1_0_0_1_wf
def dot_S5000x64_S64x1433_S5000x1433_1_0_0_1_n_n : DotDims S5000x64 S64x1433 S5000x1433 where
  lhsContracting := [1]
  rhsContracting := [0]
  lhsNonContracting := [0]
  rhsNonContracting := [1]
  lhsBatch := []
  rhsBatch := []
  wf := dot_S5000x64_S64x1433_S5000x1433_1_0_0_1_n_n_wf
def gather_S5000x1433_S50000x1_S50000x1433_1_0_n_n_0_1_11433 : GatherDims S5000x1433 S50000x1 S50000x1433 where
  offsetDims := [1]
  collapsedSliceDims := [0]
  operandBatchingDims := []
  startIndicesBatchingDims := []
  startIndexMap := [0]
  indexVectorDim := 1
  sliceSizes := ![1, 1433]
  wf := gather_S5000x1433_S50000x1_S50000x1433_1_0_n_n_0_1_11433_wf

class Facts : Prop extends Facts₀ where

variable [Facts]
-- ==== Proof.KernelRun.lean ====
/-
  The idealized kernel's run with its result array named.

  @main is six segments: a stretch of host operations, the encoder's region, three stretches of host operations, the
  decoder's region. Each segment is entered from the buffer contents the one before it left, so the contents at the
  return are a fold `W6` through @main from the launch memory. The frame proof reads only the argument arrays off
  that last boundary; the same launch, read also at the result buffer, says that every weakly fair execution ends with
  the result array at `W6`'s contents there. What those contents are is computed elsewhere.
-/
import proofs.«106188_j90117003805173_2_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v125) = W6 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v125 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.HostLeaves.lean ====
/-
  The buffers the long host stretch between the two regions reads, at the encoder region's exit.

  Between the encoder's region and the decoder's the program runs 151 host operations. They read six buffers written
  before them: the encoder's result, the two rows of the edge list viewed as vectors (sources, destinations), a vector
  of ones, the cluster vector and the encoder bias. None of the five others is an array of the encoder's region, so
  each holds at the region's exit what it held at its entry: the first stretch's operations applied to the launch
  memory, which are the reference's first operations applied to the same arguments.
-/
import proofs.«106188_j90117003805173_2_alg».proof.Proof.Gen.KernelIdeal.Frame
import proofs.«106188_j90117003805173_2_alg».proof.Proof.Gen.ReferenceIdeal.Read

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The sources of the edges, as a vector. -/
theorem exit_v1 : W2 m ρ c (Proc.devRef .tc main_v1)
    = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results
  rfl

/-- The destinations of the edges, as a vector. -/
theorem exit_v3 : W2 m ρ c (Proc.devRef .tc main_v3)
    = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl

/-- The vector of ones, one per edge. -/
theorem exit_v4 : W2 m ρ c (Proc.devRef .tc main_v4) = Cert.ReferenceIdeal.Read.val_main_v4 (F := Ideal) := by
  refine (W2_of_ne m ρ c main_v4 (by decide)).trans ?_
  show StableHlo.after hostOps0 (W0 m ρ c) (Proc.devRef .tc main_v4) = _
  after_results
  rfl

/-- The cluster vector. -/
theorem exit_arg3 : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

/-- The encoder bias. -/
theorem exit_arg5 : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-- The node features, as the encoder's region finds them. -/
theorem entry_arg0 : V1 m ρ c main_arg0 = m ((c : Thread nD τ).loc main_arg0) := by
  show StableHlo.after hostOps0 (W0 m ρ c) (Proc.devRef .tc main_arg0) = _
  after_results

/-- The encoder weights, as the encoder's region finds them. -/
theorem entry_arg4 : V1 m ρ c main_arg4 = m ((c : Thread nD τ).loc main_arg4) := by
  show StableHlo.after hostOps0 (W0 m ρ c) (Proc.devRef .tc main_arg4) = _
  after_results

/-- The decoder weights, as the decoder's region finds them: an input array of that region, unchanged by it. -/
theorem entry_arg6 : V5 m ρ c main_arg6 = m ((c : Thread nD τ).loc main_arg6) :=
  ((W6_arr m ρ c 1).trans (((dat1 (V5 m ρ) c).arrAt_in 1 rfl _).trans (A_eq1 (V5 m ρ) c 1))).symm.trans (W6_main_arg6 m ρ c)

/-- The decoder bias, as the decoder's region finds it. -/
theorem entry_arg7 : V5 m ρ c main_arg7 = m ((c : Thread nD τ).loc main_arg7) :=
  ((W6_arr m ρ c 2).trans (((dat1 (V5 m ρ) c).arrAt_in 2 rfl _).trans (A_eq1 (V5 m ρ) c 2))).symm.trans (W6_main_arg7 m ρ c)

end Cert.KernelIdeal.Glue

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.Region0.lean ====
/-
  The encoder's region: the array it leaves is the matrix product of the node features and the encoder weights.

  The grid has 25 points; point t stages rows 2000·t … 2000·t + 1999 of the feature table x [50000, 1433], the whole
  weight table w [1433, 64], and writes back rows 2000·t … 2000·t + 1999 of the result [50000, 64]. The body multiplies its
  two blocks into a zero accumulator (the narrowing of the operands to bf16 is the identity on extended reals), so
  the element it stores at block position (p, q) is Σ_k x (2000·t + p, k) · w (k, q): block t of ONE function of the
  whole arrays. The 25 blocks tile the result's rows, hence the array after the region is that function.
-/
import proofs.«106188_j90117003805173_2_alg».proof.Proof.Gen.KernelIdeal.Frame
import proofs.«106188_j90117003805173_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Encoder

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The product of a [50000, 1433] table and a [1433, 64] table, index by index. -/
def prod (x : S50000x1433.Idx → EReal) (w : S1433x64.Idx → EReal) : S50000x64.Idx → EReal :=
  fun i => ∑ k : Fin 1433, x (ix2 (i 0 : Fin 50000) k) * w (ix2 k (i 1 : Fin 64))

theorem prod_apply (x : S50000x1433.Idx → EReal) (w : S1433x64.Idx → EReal) (a : Fin 50000) (b : Fin 64) :
    prod x w (ix2 a b) = ∑ k : Fin 1433, x (ix2 a k) * w (ix2 k b) := rfl

/-! ## The body's matrix product at an index -/

theorem dot_l0 (i : S2000x64.Idx) (q : dot_S2000x1433_S1433x64_S2000x64_1_0_0_1_n_n.contr.Idx) :
    (dot_S2000x1433_S1433x64_S2000x64_1_0_0_1_n_n.lhsIdx i q 0).val = (i 0).val := by
  unfold DotDims.lhsIdx
  rw [dif_neg (show ¬(0 : Fin S2000x1433.rank) ∈ dot_S2000x1433_S1433x64_S2000x64_1_0_0_1_n_n.lhsBatch by decide),
    dif_pos (show (0 : Fin S2000x1433.rank) ∈ dot_S2000x1433_S1433x64_S2000x64_1_0_0_1_n_n.lhsNonContracting by decide)]
  rfl
theorem dot_l1 (i : S2000x64.Idx) (q : dot_S2000x1433_S1433x64_S2000x64_1_0_0_1_n_n.contr.Idx) :
    (dot_S2000x1433_S1433x64_S2000x64_1_0_0_1_n_n.lhsIdx i q 1).val = (q ⟨0, by decide⟩).val :=
  dot_S2000x1433_S1433x64_S2000x64_1_0_0_1_n_n.lhsIdx_val_of_single rfl i q
theorem dot_r0 (i : S2000x64.Idx) (q : dot_S2000x1433_S1433x64_S2000x64_1_0_0_1_n_n.contr.Idx) :
    (dot_S2000x1433_S1433x64_S2000x64_1_0_0_1_n_n.rhsIdx i q 0).val = (q ⟨0, by decide⟩).val :=
  dot_S2000x1433_S1433x64_S2000x64_1_0_0_1_n_n.rhsIdx_val_of_single rfl i q
theorem dot_r1 (i : S2000x64.Idx) (q : dot_S2000x1433_S1433x64_S2000x64_1_0_0_1_n_n.contr.Idx) :
    (dot_S2000x1433_S1433x64_S2000x64_1_0_0_1_n_n.rhsIdx i q 1).val = (i 1).val := by
  unfold DotDims.rhsIdx
  rw [dif_neg (show ¬(1 : Fin S1433x64.rank) ∈ dot_S2000x1433_S1433x64_S2000x64_1_0_0_1_n_n.rhsBatch by decide),
    dif_pos (show (1 : Fin S1433x64.rank) ∈ dot_S2000x1433_S1433x64_S2000x64_1_0_0_1_n_n.rhsNonContracting by decide)]
  rfl

/-- What the body stores, at block position `j`: the contraction of row `j 0` of its first block with column `j 1` of its second. -/
theorem pay_apply (x0 : Vec Ideal S2000x1433 .f32) (x1 : Vec Ideal S1433x64 .f32) (p : Fin 2000) (q : Fin 64) :
    k0_pay1 (F := Ideal) x0 x1 (ix2 p q) = ∑ k : Fin 1433, x0 (ix2 p k) * x1 (ix2 k q) := by
  unfold k0_pay1
  refine (Ideal.matmul_constant_zero_apply dot_S2000x1433_S1433x64_S2000x64_1_0_0_1_n_n none _ _ (ix2 p q)).trans ?_
  exact PlainDot.sum_contr_eq dot_S2000x1433_S1433x64_S2000x64_1_0_0_1_n_n rfl rfl dot_l0 dot_l1 dot_r0 dot_r1 _ _ (ix2 p q)

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl

/-- The block index maps over the grid: the features' and the result's row block is the point, every other block index is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (prod (V c main_arg0) (V c main_arg4)) := by
  show (cfg0.win 2).cut (grid0.coords t) ((dat0 V c).after 2 t) = _
  rw [after0_2]
  unfold out0_2
  rw [View.canon_unit_zero origin2]
  simp only [View.ld_unit_zero (S := S2000x1433) origin2, View.ld_unit_zero (S := S1433x64) origin2]
  obtain ⟨e0, e1, e2, e3, e4, e5⟩ := block_indices t
  have ht : t.val < 25 := t.isLt
  funext j
  obtain ⟨p, q, rfl⟩ : ∃ (p : Fin 2000) (q : Fin 64), j = ix2 p q := ⟨j 0, j 1, eq_ix2 j⟩
  refine (pay_apply (iblk0 V c 0 t) (iblk0 V c 1 t) p q).trans ?_
  show _ = prod (V c main_arg0) (V c main_arg4) (((cfg0.win 2).blk t).view.emb (ix2 p q))
  have hrow : 2000 * t.val + p.val < 50000 := by have := p.isLt; omega
  have hout : ((cfg0.win 2).blk t).view.emb (ix2 p q) = ix2 (⟨2000 * t.val + p.val, hrow⟩ : Fin 50000) q := by
    funext a; apply Fin.ext
    match a with
    | ⟨0, _⟩ => show win0_2.index t (0 : Fin 2) * 2000 + 1 * p.val = 2000 * t.val + p.val; omega
    | ⟨1, _⟩ => show win0_2.index t (1 : Fin 2) * 64 + 1 * q.val = q.val; omega
  rw [hout, prod_apply]
  refine Finset.sum_congr rfl fun k _ => ?_
  have hx : iblk0 V c 0 t (ix2 p k) = V c main_arg0 (ix2 (⟨2000 * t.val + p.val, hrow⟩ : Fin 50000) k) := by
    show V c main_arg0 (((cfg0.win 0).blk t).view.emb (ix2 p k)) = _
    congr 1
    funext a; apply Fin.ext
    match a with
    | ⟨0, _⟩ => show win0_0.index t (0 : Fin 2) * 2000 + 1 * p.val = 2000 * t.val + p.val; omega
    | ⟨1, _⟩ => show win0_0.index t (1 : Fin 2) * 1433 + 1 * k.val = k.val; omega
  have hw : iblk0 V c 1 t (ix2 k q) = V c main_arg4 (ix2 k q) := by
    show V c main_arg4 (((cfg0.win 1).blk t).view.emb (ix2 k q)) = _
    congr 1
    funext a; apply Fin.ext
    match a with
    | ⟨0, _⟩ => show win0_1.index t (0 : Fin 2) * 1433 + 1 * k.val = k.val; omega
    | ⟨1, _⟩ => show win0_1.index t (1 : Fin 2) * 64 + 1 * q.val = q.val; omega
  rw [hx, hw]

/-- An index of the result array is in point `t`'s block iff each coordinate is in the block's range on its axis. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v5).slice (win0_2.rect t)).set ↔ _
  rw [View.set_slice_whole, Rect.mem_set_unit]
  exact Iff.rfl

/-- Row `r` of the result is written back by point `r / 2000`. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hlt : (i 0).val / 2000 < 25 := by omega
  obtain ⟨e0, e1, e2, e3, e4, e5⟩ := block_indices ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 64 ≤ (i 1).val ∧ (i 1).val < win0_2.index ⟨(i 0).val / 2000, hlt⟩ (1 : Fin 2) * 64 + 64
    rw [e5]; omega

/-- THE ARRAY after the region: the product of the features and the weights as the region finds them. -/
theorem final (c : Dev nD) : (dat0 V c).arrAt 2 cfg0.N = prod (V c main_arg0) (V c main_arg4) :=
  (dat0 V c).arrAt_eq_of_cover 2 (prod (V c main_arg0) (V c main_arg4)) (fun t _ => flushed_eq V c t) covered

end Cert.KernelIdeal.Encoder

end
-- ==== Proof.HostGather.lean ====
/-
  The table the decoder's region reads: the coarse features, propagated, gathered at each node's cluster.

  The encoder's result is the reference's first matrix product (the same sum, index by index). From it and the five
  buffers of the first stretch, the 151 host operations between the regions are, one for one, the reference's operations
  6 … 117 (degree, normalisation, scatter-add propagation, the bias, the rectifier, the mean over clusters, the coarse
  edge list and the coarse propagation) followed by the normalisation of the cluster numbers and the gather of the
  propagated coarse table's rows at them. The program runs them as three stretches — up to the biased propagation, the
  rectifier, and the rest — and each stretch is read from ANY buffer contents that hold, at the few buffers it reads, the
  reference's stages: the first gives the reference's stage 49, the second its stage 50, the third the reference's
  propagated coarse table (stage 117) with its rows taken at the normalised cluster numbers (stage 127).
-/
import proofs.«106188_j90117003805173_2_alg».proof.Proof.HostLeaves
import proofs.«106188_j90117003805173_2_alg».proof.Proof.Region0
import Idealize.ShloMosaic.Lib.ValueIdx

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo
open scoped BigOperators
open Cert.ReferenceIdeal.Read

/-- The encoder's product is the reference's first `dot_general`: the same sum at every index. -/
theorem prod_eq_dot (x0 : S50000x1433.Idx → EReal) (x4 : S1433x64.Idx → EReal) :
    Encoder.prod x0 x4 = Cert.ReferenceIdeal.Read.val_main_v5 (F := Ideal) x0 x4 := by
  funext i
  obtain ⟨a, b, rfl⟩ : ∃ (a : Fin 50000) (b : Fin 64), i = ix2 a b := ⟨i 0, i 1, eq_ix2 i⟩
  rw [Cert.ReferenceIdeal.Read.val_main_v5_apply, Encoder.prod_apply]
  refine Finset.sum_congr rfl fun k _ => ?_
  have el : Cert.ReferenceIdeal.Read.lidx_main_v5 (ix2 a b) k = ix2 a k :=
    funext fun d => Fin.ext (by match d with | ⟨0, _⟩ => rfl | ⟨1, _⟩ => rfl)
  have er : Cert.ReferenceIdeal.Read.ridx_main_v5 (ix2 a b) k = ix2 k b :=
    funext fun d => Fin.ext (by match d with | ⟨0, _⟩ => rfl | ⟨1, _⟩ => rfl)
  rw [el, er]

/-! ## The three stretches, from any buffer contents -/

section Stretches

variable (X : Valuation τ sig (Elt Ideal))
  (x0 : (⟨Cert.ReferenceIdeal.S50000x1433, .f32⟩ : BufTy).Contents (Elt Ideal)) (x1 : (⟨Cert.ReferenceIdeal.S2x1600000, .i32⟩ : BufTy).Contents (Elt Ideal))
  (x3 : (⟨Cert.ReferenceIdeal.S50000, .i32⟩ : BufTy).Contents (Elt Ideal)) (x4 : (⟨Cert.ReferenceIdeal.S1433x64, .f32⟩ : BufTy).Contents (Elt Ideal))
  (x5 : (⟨Cert.ReferenceIdeal.S64, .f32⟩ : BufTy).Contents (Elt Ideal))

set_option maxRecDepth 16384 in
set_option maxHeartbeats 32000000 in
/-- Degrees, normalisation, the fine propagation and the bias: the reference's stage 49. -/
theorem stretch_propagate
    (h5 : X (Proc.devRef .tc main_v5) = Cert.ReferenceIdeal.Read.val_main_v5 (F := Ideal) x0 x4)
    (h1 : X (Proc.devRef .tc main_v1) = Cert.ReferenceIdeal.Read.val_main_v1 (F := Ideal) x1)
    (h3 : X (Proc.devRef .tc main_v3) = Cert.ReferenceIdeal.Read.val_main_v3 (F := Ideal) x1)
    (h4 : X (Proc.devRef .tc main_v4) = Cert.ReferenceIdeal.Read.val_main_v4 (F := Ideal))
    (hb : X (Proc.devRef .tc main_arg5) = x5) :
    StableHlo.after hostOps1 X (Proc.devRef .tc main_v49) = Cert.ReferenceIdeal.Read.val_main_v49 (F := Ideal) x0 x1 x4 x5 := by
  after_results_simp
  rw [h5, h1, h3, h4, hb]
  -- both sides are now the same operations of the same stages, once the reference's stages 6 … 49 are spelt out
  simp only [val_main_cst_0, val_main_v6, val_main_v7, val_main_v8, val_main_cst_1, val_main_v9, val_main_v10, val_main_v11,
    val_main_c, val_main_v12, val_main_v13, val_main_c_2, val_main_v14, val_main_v15, val_main_v16, val_main_v17,
    val_main_v18, val_main_c_3, val_main_v19, val_main_v20, val_main_c_4, val_main_v21, val_main_v22, val_main_v23,
    val_main_v24, val_main_v25, val_main_v26, val_main_v27, val_main_v28, val_main_c_5, val_main_v29, val_main_v30,
    val_main_c_6, val_main_v31, val_main_v32, val_main_v33, val_main_v34, val_main_v35, val_main_v36, val_main_v37,
    val_main_cst_7, val_main_v38, val_main_v39, val_main_v40, val_main_cst_8, val_main_v41, val_main_v42,
    val_main_v43, val_main_v44, val_main_v45, val_main_v46, val_main_v47, val_main_v48, val_main_v49,
    (show Cert.KernelIdeal.scatter_S50000_S1600000x1_S1600000_n_0_0_1 = Cert.ReferenceIdeal.scatter_S50000_S1600000x1_S1600000_n_0_0_1 from rfl),
    (show Cert.KernelIdeal.gather_S50000_S1600000x1_S1600000_n_0_n_n_0_1_1 = Cert.ReferenceIdeal.gather_S50000_S1600000x1_S1600000_n_0_n_n_0_1_1 from rfl),
    (show Cert.KernelIdeal.gather_S50000x64_S1600000x1_S1600000x64_1_0_n_n_0_1_164 = Cert.ReferenceIdeal.gather_S50000x64_S1600000x1_S1600000x64_1_0_n_n_0_1_164 from rfl),
    (show Cert.KernelIdeal.scatter_S50000x64_S1600000x1_S1600000x64_1_0_0_1 = Cert.ReferenceIdeal.scatter_S50000x64_S1600000x1_S1600000x64_1_0_0_1 from rfl)]

/-- The rectifier, from any contents `A` of the biased propagation's buffer: the maximum of `A` and the zero table. -/
theorem stretch_rectify (A : (⟨Cert.ReferenceIdeal.S50000x64, .f32⟩ : BufTy).Contents (Elt Ideal))
    (h49 : X (Proc.devRef .tc main_v49) = A) :
    StableHlo.after hostOps1_1 X (Proc.devRef .tc main_v50)
      = maximumf A (broadcastInDim S50000x64 ![] bcast_S_S50000x64 (constant (F := Ideal) S_ .f32 0x00000000#32)) := by
  after_results_simp
  rw [h49]
  rfl

/-- The reference's stage 50 is that maximum of its stage 49. -/
theorem stage50_eq : val_main_v50 (F := Ideal) x0 x1 x4 x5
    = maximumf (val_main_v49 (F := Ideal) x0 x1 x4 x5)
        (broadcastInDim S50000x64 ![] bcast_S_S50000x64 (constant (F := Ideal) S_ .f32 0x00000000#32)) := by
  rw [val_main_v50, val_main_call0_v0, val_main_call0_cst]

set_option maxRecDepth 16384 in
set_option maxHeartbeats 64800000 in
/-- The mean over clusters, the coarse edge list, the coarse propagation, and the rows taken at the clusters. -/
theorem stretch_pool_gather
    (h50 : X (Proc.devRef .tc main_v50) = Cert.ReferenceIdeal.Read.val_main_v50 (F := Ideal) x0 x1 x4 x5)
    (h1 : X (Proc.devRef .tc main_v1) = Cert.ReferenceIdeal.Read.val_main_v1 (F := Ideal) x1)
    (h3 : X (Proc.devRef .tc main_v3) = Cert.ReferenceIdeal.Read.val_main_v3 (F := Ideal) x1)
    (h4 : X (Proc.devRef .tc main_v4) = Cert.ReferenceIdeal.Read.val_main_v4 (F := Ideal))
    (hc : X (Proc.devRef .tc main_arg3) = x3) :
    StableHlo.after hostOps1_2 X (Proc.devRef .tc main_v124)
      = Host.gather gather_S5000x64_S50000x1_S50000x64_1_0_n_n_0_1_164
          (Cert.ReferenceIdeal.Read.val_main_v117 (F := Ideal) x0 x1 x3 x4 x5) (Cert.ReferenceIdeal.Read.val_main_v127 (F := Ideal) x3) := by
  after_results_simp
  rw [h50, h1, h3, h4, hc]
  -- both sides are now the same operations of the same stages, once the reference's stages 51 … 117 and 122 … 127 are spelt out
  simp only [val_main_cst_9, val_main_v51, val_main_cst_10, val_main_v52, val_main_v53, val_main_v54, val_main_cst_11,
    val_main_v55, val_main_v56, val_main_v57, val_main_cst_12, val_main_v58, val_main_v59, val_main_v60,
    val_main_v61, val_main_v62, val_main_c_13, val_main_v63, val_main_v64, val_main_c_14, val_main_v65,
    val_main_v66, val_main_v67, val_main_v68, val_main_v69, val_main_c_15, val_main_v70, val_main_v71,
    val_main_c_16, val_main_v72, val_main_v73, val_main_v74, val_main_v75, val_main_v76, val_main_cst_17,
    val_main_v77, val_main_v78, val_main_v79, val_main_cst_18, val_main_v80, val_main_v81, val_main_v82,
    val_main_c_19, val_main_v83, val_main_v84, val_main_c_20, val_main_v85, val_main_v86, val_main_v87,
    val_main_v88, val_main_v89, val_main_c_21, val_main_v90, val_main_v91, val_main_c_22, val_main_v92,
    val_main_v93, val_main_v94, val_main_v95, val_main_v96, val_main_v97, val_main_v98, val_main_v99,
    val_main_c_23, val_main_v100, val_main_v101, val_main_c_24, val_main_v102, val_main_v103, val_main_v104,
    val_main_v105, val_main_v106, val_main_v107, val_main_v108, val_main_cst_25, val_main_v109, val_main_v110,
    val_main_v111, val_main_cst_26, val_main_v112, val_main_v113, val_main_v114, val_main_v115, val_main_v116,
    val_main_v117, val_main_c_27, val_main_v122, val_main_v123, val_main_c_28, val_main_v124, val_main_v125,
    val_main_v126, val_main_v127,
    (show Cert.KernelIdeal.scatter_S5000_S50000x1_S50000_n_0_0_1 = Cert.ReferenceIdeal.scatter_S5000_S50000x1_S50000_n_0_0_1 from rfl),
    (show Cert.KernelIdeal.scatter_S5000x64_S50000x1_S50000x64_1_0_0_1 = Cert.ReferenceIdeal.scatter_S5000x64_S50000x1_S50000x64_1_0_0_1 from rfl),
    (show Cert.KernelIdeal.gather_S50000_S1600000x1_S1600000_n_0_n_n_0_1_1 = Cert.ReferenceIdeal.gather_S50000_S1600000x1_S1600000_n_0_n_n_0_1_1 from rfl),
    (show Cert.KernelIdeal.scatter_S5000_S1600000x1_S1600000_n_0_0_1 = Cert.ReferenceIdeal.scatter_S5000_S1600000x1_S1600000_n_0_0_1 from rfl),
    (show Cert.KernelIdeal.gather_S5000_S1600000x1_S1600000_n_0_n_n_0_1_1 = Cert.ReferenceIdeal.gather_S5000_S1600000x1_S1600000_n_0_n_n_0_1_1 from rfl),
    (show Cert.KernelIdeal.gather_S5000x64_S1600000x1_S1600000x64_1_0_n_n_0_1_164 = Cert.ReferenceIdeal.gather_S5000x64_S1600000x1_S1600000x64_1_0_n_n_0_1_164 from rfl),
    (show Cert.KernelIdeal.scatter_S5000x64_S1600000x1_S1600000x64_1_0_0_1 = Cert.ReferenceIdeal.scatter_S5000x64_S1600000x1_S1600000x64_1_0_0_1 from rfl)]

/-! Buffers a stretch does not write keep their contents. -/

theorem propagate_keeps_v1 : StableHlo.after hostOps1 X (Proc.devRef .tc main_v1) = X (Proc.devRef .tc main_v1) := by after_results_simp
theorem propagate_keeps_v3 : StableHlo.after hostOps1 X (Proc.devRef .tc main_v3) = X (Proc.devRef .tc main_v3) := by after_results_simp
theorem propagate_keeps_v4 : StableHlo.after hostOps1 X (Proc.devRef .tc main_v4) = X (Proc.devRef .tc main_v4) := by after_results_simp
theorem propagate_keeps_arg3 : StableHlo.after hostOps1 X (Proc.devRef .tc main_arg3) = X (Proc.devRef .tc main_arg3) := by after_results_simp
theorem rectify_keeps_v1 : StableHlo.after hostOps1_1 X (Proc.devRef .tc main_v1) = X (Proc.devRef .tc main_v1) := by after_results_simp
theorem rectify_keeps_v3 : StableHlo.after hostOps1_1 X (Proc.devRef .tc main_v3) = X (Proc.devRef .tc main_v3) := by after_results_simp
theorem rectify_keeps_v4 : StableHlo.after hostOps1_1 X (Proc.devRef .tc main_v4) = X (Proc.devRef .tc main_v4) := by after_results_simp
theorem rectify_keeps_arg3 : StableHlo.after hostOps1_1 X (Proc.devRef .tc main_arg3) = X (Proc.devRef .tc main_arg3) := by after_results_simp

end Stretches

/-! ## The stretches at the program's buffers -/

variable (m : (ℓ : Loc nD τ sig) → Buf (Elt Ideal) ℓ) (ρ : Dev nD → PrngReg) (c : Dev nD)

/-- The encoder's result at its region's exit is the reference's first product of the arguments. -/
theorem exit_v5 : W2 m ρ c (Proc.devRef .tc main_v5)
    = Cert.ReferenceIdeal.Read.val_main_v5 (F := Ideal) (m ((c : Thread nD τ).loc main_arg0)) (m ((c : Thread nD τ).loc main_arg4)) := by
  refine (W2_arr m ρ c 2).trans ?_
  rw [Encoder.final (V1 m ρ) c, entry_arg0, entry_arg4]
  exact prod_eq_dot _ _

/-- The gathered table: the reference's propagated coarse table, its rows taken at the normalised cluster numbers. -/
theorem entry_v124 : V5 m ρ c main_v124
    = Host.gather gather_S5000x64_S50000x1_S50000x64_1_0_n_n_0_1_164
        (Cert.ReferenceIdeal.Read.val_main_v117 (F := Ideal) (m ((c : Thread nD τ).loc main_arg0)) (m ((c : Thread nD τ).loc main_arg1))
          (m ((c : Thread nD τ).loc main_arg3)) (m ((c : Thread nD τ).loc main_arg4)) (m ((c : Thread nD τ).loc main_arg5)))
        (Cert.ReferenceIdeal.Read.val_main_v127 (F := Ideal) (m ((c : Thread nD τ).loc main_arg3))) := by
  show StableHlo.after hostOps1_2 (W4 m ρ c) (Proc.devRef .tc main_v124) = _
  refine stretch_pool_gather (W4 m ρ c) _ _ _ _ _ ?_ ?_ ?_ ?_ ?_
  · show StableHlo.after hostOps1_1 (W3 m ρ c) (Proc.devRef .tc main_v50) = _
    refine ((stretch_rectify (W3 m ρ c) _ ?_).trans (stage50_eq _ _ _ _).symm)
    show StableHlo.after hostOps1 (W2 m ρ c) (Proc.devRef .tc main_v49) = _
    exact stretch_propagate (W2 m ρ c) _ _ _ _ (exit_v5 m ρ c) (exit_v1 m ρ c) (exit_v3 m ρ c) (exit_v4 m ρ c) (exit_arg5 m ρ c)
  · exact ((rectify_keeps_v1 (W3 m ρ c)).trans (propagate_keeps_v1 (W2 m ρ c))).trans (exit_v1 m ρ c)
  · exact ((rectify_keeps_v3 (W3 m ρ c)).trans (propagate_keeps_v3 (W2 m ρ c))).trans (exit_v3 m ρ c)
  · exact ((rectify_keeps_v4 (W3 m ρ c)).trans (propagate_keeps_v4 (W2 m ρ c))).trans (exit_v4 m ρ c)
  · exact ((rectify_keeps_arg3 (W3 m ρ c)).trans (propagate_keeps_arg3 (W2 m ρ c))).trans (exit_arg3 m ρ c)

end Cert.KernelIdeal.Glue

end
-- ==== Proof.Region1.lean ====
/-
  The decoder's region: the array it leaves is an affine map of the gathered coarse features.

  The grid has 50 points; point t stages rows 1000·t … 1000·t + 999 of the gathered table g [50000, 64], the whole
  weight table w [64, 1433] and the whole bias b [1433], and writes back rows 1000·t … 1000·t + 999 of the result
  [50000, 1433]. The body multiplies its first two blocks into a zero accumulator (the narrowing to bf16 is the identity on
  extended reals; the cast of a block to its own shape is the identity) and adds the bias, viewed as one row and repeated
  down the rows. So the element it stores at block position (p, q) is Σ_k g (1000·t + p, k) · w (k, q) + b q: block t
  of ONE function of the whole arrays, and the 50 blocks tile the result's rows.
-/
import proofs.«106188_j90117003805173_2_alg».proof.Proof.Gen.KernelIdeal.Frame
import proofs.«106188_j90117003805173_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Decoder

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- Rows of a [50000, 64] table times a [64, 1433] table, plus a [1433] row, index by index. -/
def affine (g : S50000x64.Idx → EReal) (w : S64x1433.Idx → EReal) (b : S1433.Idx → EReal) : S50000x1433.Idx → EReal :=
  fun i => (∑ k : Fin 64, g (ix2 (i 0 : Fin 50000) k) * w (ix2 k (i 1 : Fin 1433))) + b (ix1 (i 1 : Fin 1433))

theorem affine_apply (g : S50000x64.Idx → EReal) (w : S64x1433.Idx → EReal) (b : S1433.Idx → EReal) (r : Fin 50000) (q : Fin 1433) :
    affine g w b (ix2 r q) = (∑ k : Fin 64, g (ix2 r k) * w (ix2 k q)) + b (ix1 q) := rfl

/-! ## The body's result at an index -/

theorem dot_l0 (i : S1000x1433.Idx) (q : dot_S1000x64_S64x1433_S1000x1433_1_0_0_1_n_n.contr.Idx) :
    (dot_S1000x64_S64x1433_S1000x1433_1_0_0_1_n_n.lhsIdx i q 0).val = (i 0).val := by
  unfold DotDims.lhsIdx
  rw [dif_neg (show ¬(0 : Fin S1000x64.rank) ∈ dot_S1000x64_S64x1433_S1000x1433_1_0_0_1_n_n.lhsBatch by decide),
    dif_pos (show (0 : Fin S1000x64.rank) ∈ dot_S1000x64_S64x1433_S1000x1433_1_0_0_1_n_n.lhsNonContracting by decide)]
  rfl
theorem dot_l1 (i : S1000x1433.Idx) (q : dot_S1000x64_S64x1433_S1000x1433_1_0_0_1_n_n.contr.Idx) :
    (dot_S1000x64_S64x1433_S1000x1433_1_0_0_1_n_n.lhsIdx i q 1).val = (q ⟨0, by decide⟩).val :=
  dot_S1000x64_S64x1433_S1000x1433_1_0_0_1_n_n.lhsIdx_val_of_single rfl i q
theorem dot_r0 (i : S1000x1433.Idx) (q : dot_S1000x64_S64x1433_S1000x1433_1_0_0_1_n_n.contr.Idx) :
    (dot_S1000x64_S64x1433_S1000x1433_1_0_0_1_n_n.rhsIdx i q 0).val = (q ⟨0, by decide⟩).val :=
  dot_S1000x64_S64x1433_S1000x1433_1_0_0_1_n_n.rhsIdx_val_of_single rfl i q
theorem dot_r1 (i : S1000x1433.Idx) (q : dot_S1000x64_S64x1433_S1000x1433_1_0_0_1_n_n.contr.Idx) :
    (dot_S1000x64_S64x1433_S1000x1433_1_0_0_1_n_n.rhsIdx i q 1).val = (i 1).val := by
  unfold DotDims.rhsIdx
  rw [dif_neg (show ¬(1 : Fin S64x1433.rank) ∈ dot_S1000x64_S64x1433_S1000x1433_1_0_0_1_n_n.rhsBatch by decide),
    dif_pos (show (1 : Fin S64x1433.rank) ∈ dot_S1000x64_S64x1433_S1000x1433_1_0_0_1_n_n.rhsNonContracting by decide)]
  rfl

/-- What the body stores, at block position (p, q): row p of its first block against column q of its second, plus entry q of its third. -/
theorem pay_apply (x0 : Vec Ideal S1000x64 .f32) (x1 : Vec Ideal S64x1433 .f32) (x2 : Vec Ideal S1433 .f32) (p : Fin 1000) (q : Fin 1433) :
    k1_pay1 (F := Ideal) x0 x1 x2 (ix2 p q) = (∑ k : Fin 64, x0 (ix2 p k) * x1 (ix2 k q)) + x2 (ix1 q) := by
  unfold k1_pay1
  refine (addf_apply _ _ (ix2 p q)).trans ?_
  refine congrArg₂ (· + ·) ?_ ?_
  · refine (Ideal.matmul_constant_zero_apply dot_S1000x64_S64x1433_S1000x1433_1_0_0_1_n_n none _ _ (ix2 p q)).trans ?_
    refine (PlainDot.sum_contr_eq dot_S1000x64_S64x1433_S1000x1433_1_0_0_1_n_n rfl rfl dot_l0 dot_l1 dot_r0 dot_r1 _ _ (ix2 p q)).trans ?_
    refine Finset.sum_congr rfl fun k _ => ?_
    show shapeCast S1000x64 x0 shapeCasts_S1000x64_S1000x64 (ix2 p k) * x1 (ix2 k q) = _
    rw [shapeCast_self]
  · refine (broadcastTo_1b_ab_apply _ _ p q).trans ?_
    exact shapeCast_a_1a_apply x2 _ 0 q

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The block index maps over the grid: the gathered table's and the result's row block is the point, every other block index is 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the affine map of the three arrays as the region finds them. -/
theorem flushed_eq (c : Dev nD) (t : Fin cfg1.N) :
    (dat1 V c).flushed 3 t = ((cfg1.win 3).blk t).view.read (Elt Ideal) (affine (V c main_v124) (V c main_arg6) (V c main_arg7)) := by
  show (cfg1.win 3).cut (grid1.coords t) ((dat1 V c).after 3 t) = _
  rw [after1_3]
  unfold out1_3
  rw [View.canon_unit_zero origin2]
  simp only [View.ld_unit_zero (S := S1000x64) origin2, View.ld_unit_zero (S := S64x1433) origin2, View.ld_unit_zero (S := S1433) origin1]
  obtain ⟨e0, e1, e2, e3, e4, e5, e6⟩ := block_indices t
  have ht : t.val < 50 := t.isLt
  funext j
  obtain ⟨p, q, rfl⟩ : ∃ (p : Fin 1000) (q : Fin 1433), j = ix2 p q := ⟨j 0, j 1, eq_ix2 j⟩
  refine (pay_apply (iblk1 V c 0 t) (iblk1 V c 1 t) (iblk1 V c 2 t) p q).trans ?_
  show _ = affine (V c main_v124) (V c main_arg6) (V c main_arg7) (((cfg1.win 3).blk t).view.emb (ix2 p q))
  have hrow : 1000 * t.val + p.val < 50000 := by have := p.isLt; omega
  have hout : ((cfg1.win 3).blk t).view.emb (ix2 p q) = ix2 (⟨1000 * t.val + p.val, hrow⟩ : Fin 50000) q := by
    funext a; apply Fin.ext
    match a with
    | ⟨0, _⟩ => show win1_3.index t (0 : Fin 2) * 1000 + 1 * p.val = 1000 * t.val + p.val; omega
    | ⟨1, _⟩ => show win1_3.index t (1 : Fin 2) * 1433 + 1 * q.val = q.val; omega
  rw [hout, affine_apply]
  have hb : iblk1 V c 2 t (ix1 q) = V c main_arg7 (ix1 q) := by
    show V c main_arg7 (((cfg1.win 2).blk t).view.emb (ix1 q)) = _
    congr 1
    funext a; apply Fin.ext
    match a with
    | ⟨0, _⟩ => show win1_2.index t (0 : Fin 1) * 1433 + 1 * q.val = q.val; omega
  rw [hb]
  refine congrArg (· + V c main_arg7 (ix1 q)) (Finset.sum_congr rfl fun k _ => ?_)
  have hg : iblk1 V c 0 t (ix2 p k) = V c main_v124 (ix2 (⟨1000 * t.val + p.val, hrow⟩ : Fin 50000) k) := by
    show V c main_v124 (((cfg1.win 0).blk t).view.emb (ix2 p k)) = _
    congr 1
    funext a; apply Fin.ext
    match a with
    | ⟨0, _⟩ => show win1_0.index t (0 : Fin 2) * 1000 + 1 * p.val = 1000 * t.val + p.val; omega
    | ⟨1, _⟩ => show win1_0.index t (1 : Fin 2) * 64 + 1 * k.val = k.val; omega
  have hw : iblk1 V c 1 t (ix2 k q) = V c main_arg6 (ix2 k q) := by
    show V c main_arg6 (((cfg1.win 1).blk t).view.emb (ix2 k q)) = _
    congr 1
    funext a; apply Fin.ext
    match a with
    | ⟨0, _⟩ => show win1_1.index t (0 : Fin 2) * 64 + 1 * k.val = k.val; omega
    | ⟨1, _⟩ => show win1_1.index t (1 : Fin 2) * 1433 + 1 * q.val = q.val; omega
  rw [hg, hw]

/-- An index of the result array is in point `t`'s block iff each coordinate is in the block's range on its axis. -/
theorem mem_block (t : Fin cfg1.N) (i : S50000x1433.Idx) :
    i ∈ ((cfg1.win 3).blk t).view.set ↔ ∀ a : Fin 2, win1_3.index t a * S1000x1433.size a ≤ (i a).val ∧ (i a).val < win1_3.index t a * S1000x1433.size a + S1000x1433.size a := by
  show i ∈ ((View.whole main_v125).slice (win1_3.rect t)).set ↔ _
  rw [View.set_slice_whole, Rect.mem_set_unit]
  exact Iff.rfl

/-- Row `r` of the result is written back by point `r / 1000`. -/
theorem covered (i : S50000x1433.Idx) : ∃ t : Fin cfg1.N, (cfg1.win 3).flush t = true ∧ i ∈ ((cfg1.win 3).blk t).view.set := by
  have hi0 : (i 0).val < 50000 := (i 0).isLt
  have hi1 : (i 1).val < 1433 := (i 1).isLt
  have hlt : (i 0).val / 1000 < 50 := by omega
  obtain ⟨e0, e1, e2, e3, e4, e5, e6⟩ := block_indices ⟨(i 0).val / 1000, hlt⟩
  refine ⟨⟨(i 0).val / 1000, hlt⟩, flush1_3 _, ?_⟩
  rw [mem_block]
  intro a
  match a with
  | ⟨0, _⟩ =>
    show win1_3.index ⟨(i 0).val / 1000, hlt⟩ (0 : Fin 2) * 1000 ≤ (i 0).val ∧ (i 0).val < win1_3.index ⟨(i 0).val / 1000, hlt⟩ (0 : Fin 2) * 1000 + 1000
    rw [e5]; show (i 0).val / 1000 * 1000 ≤ (i 0).val ∧ (i 0).val < (i 0).val / 1000 * 1000 + 1000; omega
  | ⟨1, _⟩ =>
    show win1_3.index ⟨(i 0).val / 1000, hlt⟩ (1 : Fin 2) * 1433 ≤ (i 1).val ∧ (i 1).val < win1_3.index ⟨(i 0).val / 1000, hlt⟩ (1 : Fin 2) * 1433 + 1433
    rw [e6]; omega

/-- THE ARRAY after the region: the affine map of the gathered table, the weights and the bias as the region finds them. -/
theorem final (c : Dev nD) : (dat1 V c).arrAt 3 cfg1.N = affine (V c main_v124) (V c main_arg6) (V c main_arg7) :=
  (dat1 V c).arrAt_eq_of_cover 3 (affine (V c main_v124) (V c main_arg6) (V c main_arg7)) (fun t _ => flushed_eq V c t) covered

end Cert.KernelIdeal.Decoder

end
-- ==== Proof.LibRowGather.lean ====
/-
  Whole rows taken out of a table.

  `stablehlo.gather` of a rank-2 operand [R, C] at a column [N, 1] of start indices, with the row axis collapsed, the
  column axis an offset axis of full width C, and the one start-index component naming the row axis: what `x[idx]` lowers
  to for a table `x` and a vector `idx` of row numbers. Result element (r, c) is the operand's at (row r, c), where
  row r is the start index at [r, 0] read as a signed integer and clamped into [0, R − 1] (StableHLO clamps every
  start index so that the slice fits). In particular two such gathers over the same start indices, out of tables with
  the same number of rows, read the same rows — whatever their widths.
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The dimension numbers of a row gather: operand [R, C], start indices [N, 1], result [N, C]. -/
abbrev rowDims (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row read for result row `r`: the start index at [r, 0], signed, clamped into [0, R − 1]. -/
def rowOf {N w : Nat} (R : Nat) (hR : 0 < R) (idx : IVec ⟨2, ![N, 1]⟩ w) (r : Fin N) : Fin R :=
  ⟨min (idx (ix2 r (0 : Fin 1))).toInt.toNat (R - 1), by omega⟩

/-- THE ROW GATHER READ AT (r, c): the operand at (row r, c). -/
theorem gather_rows_apply {R C N w : Nat} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (y : (⟨2, ![N, C]⟩ : Shape).Idx) :
    Host.gather (rowDims R C N wf) x idx y = x (ix2 (rowOf R hR idx (y 0)) (y 1)) := by
  unfold Host.gather
  congr 1
  funext a
  refine Fin.ext ?_
  show (rowDims R C N wf).start y idx a + (rowDims R C N wf).batchCoord y a + (rowDims R C N wf).offCoord y a = _
  rw [GatherDims.batchCoord_eq_zero _ _ _ List.not_mem_nil]
  match a with
  | ⟨0, _⟩ =>
    show (rowDims R C N wf).start y idx (0 : Fin 2) + 0 + (rowDims R C N wf).offCoord y (0 : Fin 2)
      = (rowOf R hR idx (y 0)).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C N wf).startIndexMap from List.mem_singleton.mpr rfl)]
    have hsi : (rowDims R C N wf).siIdx y ⟨List.idxOf (0 : Fin 2) (rowDims R C N wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    have hs : (rowDims R C N wf).start y idx (1 : Fin 2) = 0 := by
      unfold GatherDims.start
      rw [dif_neg (show ¬ (1 : Fin 2) ∈ ([0] : List (Fin 2)) by decide)]
    have ho : (rowDims R C N wf).offCoord y (1 : Fin 2) = (y 1).val := by
      unfold GatherDims.offCoord
      rw [dif_pos ((GatherDims.mem_sKept _ _).mpr ⟨(show ¬ (1 : Fin 2) ∈ ([0] : List (Fin 2)) by decide), List.not_mem_nil⟩)]
      rfl
    show (rowDims R C N wf).start y idx (1 : Fin 2) + 0 + (rowDims R C N wf).offCoord y (1 : Fin 2) = (y 1).val
    rw [hs, ho]; omega

/-- Two row gathers over the same start indices, out of tables with the same number of rows, read the same row. -/
theorem rowOf_congr {N w : Nat} (R : Nat) (hR hR' : 0 < R) (idx : IVec ⟨2, ![N, 1]⟩ w) (r : Fin N) :
    rowOf R hR idx r = rowOf R hR' idx r := rfl

end Idealize.ShloMosaic.RowGather

end
-- ==== Proof.Bridge.lean ====
/-
  Taking rows commutes with a row-wise affine map.

  The kernel takes, for every node, the row of the propagated coarse table A [5000, 64] at the node's cluster and then
  applies the decoder, row · W + b; the reference applies the decoder to all 5000 rows of A and then takes, for every
  node, the decoded row at the node's cluster. Both gathers read their start indices off the same vector and clamp
  them into the same range [0, 4999] — the two tables have the same number of rows — so both take the same row ρ(r)
  for node r, and element (r, q) is Σ_k A (ρ r, k) · W (k, q) + b q on either side. No law of the extended reals beyond
  reading both sides at an index is used; in particular nothing needs the inputs to be finite.
-/
import proofs.«106188_j90117003805173_2_alg».proof.Proof.Region1
import proofs.«106188_j90117003805173_2_alg».proof.Proof.LibRowGather
import proofs.«106188_j90117003805173_2_alg».proof.Proof.Gen.ReferenceIdeal.Read

noncomputable section

namespace Cert.KernelIdeal.Glue

open Idealize.ShloMosaic Idealize.ShloMosaic.TcCoe Idealize.ShloMosaic.ValueIdx Idealize.ShloMosaic.RowGather
open scoped BigOperators

/-- The kernel's gather is a row gather out of a table of 5000 rows of width 64. -/
theorem kernel_gather_rows : Cert.KernelIdeal.gather_S5000x64_S50000x1_S50000x64_1_0_n_n_0_1_164
    = rowDims 5000 64 50000 Cert.KernelIdeal.gather_S5000x64_S50000x1_S50000x64_1_0_n_n_0_1_164.wf := rfl

/-- The reference's gather is a row gather out of a table of 5000 rows of width 1433. -/
theorem reference_gather_rows : Cert.ReferenceIdeal.gather_S5000x1433_S50000x1_S50000x1433_1_0_n_n_0_1_11433
    = rowDims 5000 1433 50000 Cert.ReferenceIdeal.gather_S5000x1433_S50000x1_S50000x1433_1_0_n_n_0_1_11433.wf := rfl

open Cert.ReferenceIdeal in
/-- Decoding the gathered rows is gathering the decoded rows. -/
theorem decode_gathered
    (x0 : (⟨S50000x1433, .f32⟩ : BufTy).Contents (Elt Ideal)) (x1 : (⟨S2x1600000, .i32⟩ : BufTy).Contents (Elt Ideal))
    (x3 : (⟨S50000, .i32⟩ : BufTy).Contents (Elt Ideal)) (x4 : (⟨S1433x64, .f32⟩ : BufTy).Contents (Elt Ideal))
    (x5 : (⟨S64, .f32⟩ : BufTy).Contents (Elt Ideal)) (x6 : (⟨S64x1433, .f32⟩ : BufTy).Contents (Elt Ideal))
    (x7 : (⟨S1433, .f32⟩ : BufTy).Contents (Elt Ideal)) :
    Cert.KernelIdeal.Decoder.affine
        (Host.gather Cert.KernelIdeal.gather_S5000x64_S50000x1_S50000x64_1_0_n_n_0_1_164
          (Cert.ReferenceIdeal.Read.val_main_v117 (F := Ideal) x0 x1 x3 x4 x5) (Cert.ReferenceIdeal.Read.val_main_v127 (F := Ideal) x3)) x6 x7
      = Cert.ReferenceIdeal.Read.val_main_v128 (F := Ideal) x0 x1 x3 x4 x5 x6 x7 := by
  funext i
  obtain ⟨r, q, rfl⟩ : ∃ (r : Fin 50000) (q : Fin 1433), i = ix2 r q := ⟨i 0, i 1, eq_ix2 i⟩
  rw [Cert.KernelIdeal.Decoder.affine_apply]
  unfold Cert.ReferenceIdeal.Read.val_main_v128
  have hR : Host.gather Cert.ReferenceIdeal.gather_S5000x1433_S50000x1_S50000x1433_1_0_n_n_0_1_11433
      (Cert.ReferenceIdeal.Read.val_main_v121 (F := Ideal) x0 x1 x3 x4 x5 x6 x7) (Cert.ReferenceIdeal.Read.val_main_v127 (F := Ideal) x3) (ix2 r q)
      = Cert.ReferenceIdeal.Read.val_main_v121 (F := Ideal) x0 x1 x3 x4 x5 x6 x7
          (ix2 (rowOf 5000 (by omega) (Cert.ReferenceIdeal.Read.val_main_v127 (F := Ideal) x3) r) q) := by
    rw [reference_gather_rows]
    exact gather_rows_apply (by omega) _ _ _ (ix2 r q)
  rw [hR, Cert.ReferenceIdeal.Read.val_main_v121_apply, Cert.ReferenceIdeal.Read.val_main_v118_apply, Cert.ReferenceIdeal.Read.val_main_v120_apply, Cert.ReferenceIdeal.Read.val_main_v119_apply]
  refine congrArg₂ (· + ·) (Finset.sum_congr rfl fun k _ => ?_) ?_
  · have hK : Host.gather Cert.KernelIdeal.gather_S5000x64_S50000x1_S50000x64_1_0_n_n_0_1_164
        (Cert.ReferenceIdeal.Read.val_main_v117 (F := Ideal) x0 x1 x3 x4 x5) (Cert.ReferenceIdeal.Read.val_main_v127 (F := Ideal) x3) (ix2 r k)
        = Cert.ReferenceIdeal.Read.val_main_v117 (F := Ideal) x0 x1 x3 x4 x5
            (ix2 (rowOf 5000 (by omega) (Cert.ReferenceIdeal.Read.val_main_v127 (F := Ideal) x3) r) k) := by
      rw [kernel_gather_rows]
      exact gather_rows_apply (by omega) _ _ _ (ix2 r k)
    have el : Cert.ReferenceIdeal.Read.lidx_main_v118 (ix2 (rowOf 5000 (by omega) (Cert.ReferenceIdeal.Read.val_main_v127 (F := Ideal) x3) r) q) k
        = ix2 (rowOf 5000 (by omega) (Cert.ReferenceIdeal.Read.val_main_v127 (F := Ideal) x3) r) k :=
      funext fun d => Fin.ext (by match d with | ⟨0, _⟩ => rfl | ⟨1, _⟩ => rfl)
    have er : Cert.ReferenceIdeal.Read.ridx_main_v118 (ix2 (rowOf 5000 (by omega) (Cert.ReferenceIdeal.Read.val_main_v127 (F := Ideal) x3) r) q) k = ix2 k q :=
      funext fun d => Fin.ext (by match d with | ⟨0, _⟩ => rfl | ⟨1, _⟩ => rfl)
    rw [hK, el, er]
  · refine congrArg x7 (funext fun d => Fin.ext ?_)
    match d with
    | ⟨0, _⟩ => rfl

end Cert.KernelIdeal.Glue

end
-- ==== Proof.KernelValue.lean ====
/-
  The idealized kernel's result, as one function of its arguments.

  The result buffer ends at the last boundary's contents (the run with its result named). Those are what the decoder's
  region leaves in its output array: the affine map of the three arrays it stages — the gathered table, the decoder
  weights and the decoder bias, the last two the launch arguments. The gathered table is the reference's propagated
  coarse table with its rows taken at the normalised cluster numbers, and decoding gathered rows is gathering decoded
  rows: the reference's own last stage, of the same arguments.
-/
import proofs.«106188_j90117003805173_2_alg».proof.Proof.KernelRun
import proofs.«106188_j90117003805173_2_alg».proof.Proof.HostGather
import proofs.«106188_j90117003805173_2_alg».proof.Proof.Region1
import proofs.«106188_j90117003805173_2_alg».proof.Proof.Bridge

noncomputable section

namespace Cert.KernelIdeal.Named

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents at the result buffer: the reference's last stage of the launch arguments. -/
theorem result_eq (c : Dev nD) : W6 m ρ c (Proc.devRef .tc main_v125)
    = Cert.ReferenceIdeal.Read.val_main_v128 (F := Ideal) (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W6_arr m ρ c 3).trans ?_
  rw [Decoder.final (V5 m ρ) c, Glue.entry_v124 m ρ c, Glue.entry_arg6 m ρ c, Glue.entry_arg7 m ρ c]
  exact Glue.decode_gathered _ _ _ _ _ _ _

/-- Every weakly fair execution of the idealized kernel ends with the result at that function of the arguments, the
    arguments unchanged. -/
theorem run_value : θ_run defs (onTc (τ := τ) (main (F := Ideal))) ⟨m, fun _ => 0, ρ⟩ (fun r => ∀ c : Dev nD,
      r.2.mem ((c.tc : Thread nD τ).loc main_v125)
        = Cert.ReferenceIdeal.Read.val_main_v128 (F := Ideal) (m ((c : Thread nD τ).loc main_arg0)) (m ((c : Thread nD τ).loc main_arg1))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named (F := Ideal) m ρ)

end Cert.KernelIdeal.Named

end
-- ==== Proof.lean ====
/-
  A two-layer graph autoencoder over clusters: GCN encode, mean-pool over clusters, GCN decode on the coarse graph,
  unpool — the kernel against its plain reference, as extended reals.

  The two programs run the same host operations on the same arguments except at two places. (1) The encoder's linear map
  x · W_enc is a pipelined matrix product in the kernel (25 row blocks of 2000) and one `dot_general` in the reference: the
  same sum over the 1433 features at every index. (2) The reference decodes the 5000 propagated coarse rows, A · W_dec + b_dec,
  and then copies to every node its cluster's decoded row; the kernel copies to every node its cluster's coarse row first
  and decodes the 50000 copied rows in a second pipelined product (50 row blocks of 1000). Both copies read the same
  normalised, clamped cluster number, and a row-wise affine map commutes with taking rows: element (r, q) is
  Σ_k A (ρ r, k) · W_dec (k, q) + b_dec q on either side. Everything between (1) and (2) — degrees, normalisation, the two
  scatter-add propagations, the rectifier, the mean over clusters — is operation for operation the same term of the
  encoder's product and the arguments, and is never opened. No step uses that the inputs are finite.

  The idealization rewrote nothing, so it preserves the kernel trivially; the two kernels' frames are generated, and
  the reference's frame is its run with the result dropped.
-/
import proofs.«106188_j90117003805173_2_alg».proof.Defs
import proofs.«106188_j90117003805173_2_alg».proof.Proof.Gen.Kernel
import proofs.«106188_j90117003805173_2_alg».proof.Proof.Gen.Kernel.Skeleton
import proofs.«106188_j90117003805173_2_alg».proof.Proof.Gen.Kernel.Launch
import proofs.«106188_j90117003805173_2_alg».proof.Proof.Gen.Kernel.Points
import proofs.«106188_j90117003805173_2_alg».proof.Proof.Gen.Kernel.Frame
import proofs.«106188_j90117003805173_2_alg».proof.Proof.Gen.KernelIdeal
import proofs.«106188_j90117003805173_2_alg».proof.Proof.Gen.KernelIdeal.Skeleton
import proofs.«106188_j90117003805173_2_alg».proof.Proof.Gen.KernelIdeal.Launch
import proofs.«106188_j90117003805173_2_alg».proof.Proof.Gen.KernelIdeal.Points
import proofs.«106188_j90117003805173_2_alg».proof.Proof.Gen.KernelIdeal.Frame
import proofs.«106188_j90117003805173_2_alg».proof.Proof.Gen.ReferenceIdeal
import proofs.«106188_j90117003805173_2_alg».proof.Proof.Gen.ReferenceIdeal.Run
import proofs.«106188_j90117003805173_2_alg».proof.Proof.Gen.ReferenceIdeal.Read
import proofs.«106188_j90117003805173_2_alg».proof.Proof.Gen.Pre_finite_inputs
import proofs.«106188_j90117003805173_2_alg».proof.Proof.KernelValue
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  by
    -- both runs end at the reference's last stage of the (agreeing) arguments
    intro m ρ m' ρ' _ hagree
    refine ⟨_, Cert.KernelIdeal.Named.run_value m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v128_eq, (hagree c).1, (hagree c).2.1, (hagree c).2.2.2.1, (hagree c).2.2.2.2.1,
      (hagree c).2.2.2.2.2.1, (hagree c).2.2.2.2.2.2.1, (hagree c).2.2.2.2.2.2.2]⟩

end Cert.Proof

end
